-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000x64 : Shape := ⟨2, ![100000, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000x64 : S_.BroadcastsInDim S100000x64 (![] : Fin 0 → Fin S100000x64.rank)
  reducesTo_S100000x64_S_d0_1 : S100000x64.ReducesTo [0, 1] S_

variable [Facts]

def fn_part1 {F : FTy → Type} [FloatOps F] (main_arg5 : FVec F S64 .f32) (main_arg6 : FVec F S100000x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S100000x64 .f32 := Host.absf main_arg6
  let main_cst_8 : FVec F S_ .f32 := constant S_ .f32 0x7F800000#32
  let main_v25 : FVec F S100000x64 .f32 := broadcastInDim S100000x64 ![] bcast_S_S100000x64 main_cst_8
  let main_v26 : IVec S100000x64 1 := cmpf .olt main_v24 main_v25
  let main_c_9 : IVec S_ 1 := constantI S_ 1 1#1
  let main_v27 : IVec S_ 1 := (fun x v => Host.reduce IntOp.andi x v reducesTo_S100000x64_S_d0_1 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128x64 .f32) (main_arg3 : FVec F S64 .f32) (main_arg4 : FVec F S128x64 .f32) (main_arg5 : FVec F S64 .f32) (main_arg6 : FVec F S100000x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x128 : Shape := ⟨2, ![128, 128]⟩
abbrev S5000x128 : Shape := ⟨2, ![5000, 128]⟩
abbrev S1700000x128 : Shape := ⟨2, ![1700000, 128]⟩
abbrev S128 : Shape := ⟨1, ![128]⟩
abbrev S1x128 : Shape := ⟨2, ![1, 128]⟩
abbrev S5000x64 : Shape := ⟨2, ![5000, 64]⟩

abbrev nBuf : Space → Nat
  | .hbm => 68
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S100000x64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S128x128, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S128, .f32⟩
  | .hbm, ⟨66, _⟩ => ⟨S1x128, .f32⟩
  | .hbm, ⟨67, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  concatenates_S128x64_S128x64_S128x128_d1 : Shape.Concatenates [S128x64, S128x64] S128x128 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  concatenates_S64_S64_S128_d0 : Shape.Concatenates [S64, S64] S128 0
  bcast_S128_S1x128_1 : S128.BroadcastsInDim S1x128 (![1] : Fin 1 → Fin S1x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5000x128_o0_0_S5000x64 : S5000x128.Slices ![0, 0] S5000x64
  slices_S5000x128_o0_64_S5000x64 : S5000x128.Slices ![0, 64] S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S100000x64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S1700000, .f32⟩
  | .hbm, ⟨69, _⟩ => ⟨S_, .f32⟩
  | .hbm, ⟨70, _⟩ => ⟨S100000, .f32⟩
  | .hbm, ⟨71, _⟩ => ⟨S1700000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .i1⟩
  | .hbm, ⟨76, _⟩ => ⟨S100000, .f32⟩
  | .hbm, ⟨77, _⟩ => ⟨S_, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000, .f32⟩
  | .hbm, ⟨99, _⟩ => ⟨S1700000, .f32⟩
  | .hbm, ⟨100, _⟩ => ⟨S100000x64, .f32⟩
  | .hbm, ⟨101, _⟩ => ⟨S_, .i32⟩
  | .hbm, ⟨102, _⟩ => ⟨S1700000, .i32⟩
  | .hbm, ⟨103, _⟩ => ⟨S1700000, .i1⟩
  | .hbm, ⟨104, _⟩ => ⟨S_, .i32⟩
  | .hbm, ⟨105, _⟩ => ⟨S1700000, .i32⟩
  | .hbm, ⟨106, _⟩ => ⟨S1700000, .i32⟩
  | .hbm, ⟨107, _⟩ => ⟨S1700000, .i32⟩
  | .hbm, ⟨108, _⟩ => ⟨S1700000x1, .i32⟩
  | .hbm, ⟨109, _⟩ => ⟨S1700000x64, .f32⟩
  | .hbm, ⟨110, _⟩ => ⟨S1700000x1, .f32⟩
  | .hbm, ⟨111, _⟩ => ⟨S1700000x64, .f32⟩
  | .hbm, ⟨112, _⟩ => ⟨S1700000x64, .f32⟩
  | .hbm, ⟨113, _⟩ => ⟨S_, .f32⟩
  | .hbm, ⟨114, _⟩ => ⟨S100000x64, .f32⟩
  | .hbm, ⟨115, _⟩ => ⟨S1700000x1, .i32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | .hbm, ⟨120, _⟩ => ⟨S_, .f32⟩
  | .hbm, ⟨121, _⟩ => ⟨S100000x64, .f32⟩
  | .hbm, ⟨122, _⟩ => ⟨S100000x64, .f32⟩
  | .hbm, ⟨123, _⟩ => ⟨S100000x64, .f32⟩
  | .hbm, ⟨124, _⟩ => ⟨S100000x64, .f32⟩
  | .hbm, ⟨125, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_call1_v0 : Ref sig .tc := ⟨.hbm, 78, rfl⟩
abbrev main_call1_v1 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_c_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_15 : Ref sig .tc := ⟨.hbm, 90, rfl⟩
abbrev main_v62 : Ref sig .tc := ⟨.hbm, 91, rfl⟩
abbrev main_v63 : Ref sig .tc := ⟨.hbm, 92, rfl⟩
abbrev main_c_16 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_17 : Ref sig .tc := ⟨.hbm, 101, rfl⟩
abbrev main_v71 : Ref sig .tc := ⟨.hbm, 102, rfl⟩
abbrev main_v72 : Ref sig .tc := ⟨.hbm, 103, rfl⟩
abbrev main_c_18 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_19 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_20 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RunNamed.lean ====
/-
  The idealized program's run with its RESULT named.

  The program is two launches among stretches of host operations.  The buffers' contents at each boundary are a fold
  from the launch memory: a stretch of host operations applies them, a launch leaves each of its arrays at what its
  write-backs folded and every other buffer as it found it.  The frame keeps only the arguments of that fold; here the
  same launch argument keeps one more buffer, the result, at the last boundary's contents.
-/
import proofs.«143661_j36464272343629_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting, with the result buffer at the last boundary's contents
    and the arguments as launched. -/
theorem run_named : θ_run defs (onTc (τ := τ) (main (F := F))) ⟨m, fun _ => 0, ρ⟩ (fun r => ∀ c : Dev nD,
      r.2.mem ((c.tc : Thread nD τ).loc main_v47) = W6 m ρ c (Proc.devRef .tc main_v47)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Named

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.Region0.lean ====
/-
  The first launch: the dense product, as one function of the two arrays it reads.

  The launch walks twenty blocks of 5000 rows.  At block `t` the body reads rows `5000 t … 5000 t + 4999` of the
  `[100000, 128]` operand and the whole `[128, 128]` matrix, multiplies them on the matrix unit into a zero accumulator
  (the narrowing to 16-bit floats before the unit is the identity on extended reals) and stores the `[5000, 128]`
  product as rows `5000 t …` of the result.  An entry `(r, c)` of the result is therefore `Σ k, x (r, k) · w (k, c)`
  whichever block holds row `r`, and the twenty blocks tile the result.
-/
import proofs.«143661_j36464272343629_1_alg».proof.Proof.Gen.KernelIdeal.Frame
import proofs.«143661_j36464272343629_1_alg».proof.Proof.LibPlainDot
import Idealize.ShloMosaic.Lib.Pipeline.Value
import Idealize.ShloMosaic.Lib.ValueIdx
import Idealize.ShloMosaic.PureOps.Ideal.Laws

set_option maxRecDepth 16384

open scoped BigOperators

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

theorem hz : (![0, 0] : Fin 2 → Nat) = fun _ => 0 := funext fun a => by fin_cases a <;> rfl

/-- Entry `(p, q)` of the product of `x : [100000, 128]` with `w : [128, 128]`. -/
def prodAt (x : Vec Ideal S100000x128 .f32) (w : Vec Ideal S128x128 .f32) (p : Fin 100000) (q : Fin 128) : EReal :=
  ∑ k : Fin 128, x (ix2 p k) * w (ix2 k q)

/-- The product as an array. -/
def prod (x : Vec Ideal S100000x128 .f32) (w : Vec Ideal S128x128 .f32) : Vec Ideal S100000x128 .f32 :=
  fun i => prodAt x w ⟨(i 0).val, (i 0).isLt⟩ ⟨(i 1).val, (i 1).isLt⟩

theorem prod_apply (x : Vec Ideal S100000x128 .f32) (w : Vec Ideal S128x128 .f32) (p : Fin 100000) (q : Fin 128) :
    prod x w (ix2 p q) = ∑ k : Fin 128, x (ix2 p k) * w (ix2 k q) := rfl

/-- What the body stores, at an entry of the block: the row of the first block against the column of the matrix. -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (PlainDot.matmul_zero_apply dot_S5000x128_S128x128_S5000x128_1_0_0_1_n_n none rfl rfl
    (fun i q => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun i q => dot_S5000x128_S128x128_S5000x128_1_0_0_1_n_n.lhsIdx_val_of_single rfl i q)
    (fun i q => dot_S5000x128_S128x128_S5000x128_1_0_0_1_n_n.rhsIdx_val_of_single rfl i q)
    (fun i q => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    _ _ p q).trans ?_
  refine Finset.sum_congr rfl fun k _ => ?_
  rw [truncf_apply, truncf_apply, shapeCast_self]

variable (V : (c : Dev nD) → (b : Ref sig .tc) → Buf (Elt Ideal) ((c : Thread nD τ).loc b))

/-- The printed index maps over the twenty points: the operand's and the result's blocks move down the rows with the
    point, the matrix's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the launch finds them. -/
theorem flushed_eq (c : Dev nD) (t : Fin cfg0.N) :
    (dat0 V c).flushed 2 t = ((cfg0.win 2).blk t).view.read (Elt Ideal) (prod (V c main_arg0) (V c main_v30)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = prod (V c main_arg0) (V c main_v30) (((cfg0.win 2).blk t).view.emb (ix2 p q))
  refine (pay_apply _ _ p q).trans ?_
  unfold prod prodAt
  refine Finset.sum_congr rfl fun k _ => ?_
  congr 1
  · show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_v30 (((cfg0.win 1).blk t).view.emb (ix2 k q)) = V c main_v30 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- The twenty blocks tile the result: row `r` is in block `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  obtain ⟨e0, e1, e2, e3, e4, e5⟩ := idx_facts ⟨(i 0).val / 5000, by rw [hN]; omega⟩
  rw [mem_blk]
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The result array after the launch is the product of the two arrays as the launch found them. -/
theorem final (c : Dev nD) : (dat0 V c).arrAt 2 cfg0.N = prod (V c main_arg0) (V c main_v30) :=
  (dat0 V c).arrAt_eq_of_cover 2 (prod (V c main_arg0) (V c main_v30)) (fun t _ => flushed_eq V c t) cover

end Cert.KernelIdeal.Dense

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.Region1.lean ====
/-
  The second launch: the reparameterisation step, as one function of the three arrays it reads.

  The launch walks twenty blocks of 5000 rows.  At block `t` the body reads rows `5000 t …` of the aggregated
  `[100000, 128]` table `a`, the whole `[1, 128]` bias row `b` and rows `5000 t …` of the noise `e : [100000, 64]`, adds the
  bias row to every row of the table, and splits the 128 lanes into the first 64 (the mean) and the last 64 (the
  log-deviation, clamped above at ten); it stores  mean + e · exp(log-deviation)  as rows `5000 t …` of the
  `[100000, 64]` result.  Entry `(n, q)` of the result is therefore
      (a (n, q) + b (0, q)) + e (n, q) · exp (min (a (n, 64 + q) + b (0, 64 + q)) 10)
  whichever block holds row `n`, and the twenty blocks tile the result.
-/
import proofs.«143661_j36464272343629_1_alg».proof.Proof.Gen.KernelIdeal.Frame
import proofs.«143661_j36464272343629_1_alg».proof.Proof.LibRowBroadcast
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Combine

open Cert.KernelIdeal Cert.KernelIdeal.Gen

theorem hz : (![0, 0] : Fin 2 → Nat) = fun _ => 0 := funext fun a => by fin_cases a <;> rfl

/-- Lane `q` of the first half of 128 lanes. -/
abbrev lo (q : Fin 64) : Fin 128 := ⟨q.val, by omega⟩
/-- Lane `q` of the second half of 128 lanes. -/
abbrev hi (q : Fin 64) : Fin 128 := ⟨64 + q.val, by omega⟩

/-- The clamp's bound, ten, as the kernel spells it. -/
abbrev ten : EReal := (Scalar.ofBits (F := Ideal) .f32 0x41200000#32 : Ideal .f32)

/-- Entry `(n, q)` of the result, from a table `a` of rows of 128 lanes, a bias row `b` and noise `e`. -/
def combAt {R : ℕ} (a : (⟨2, ![R, 128]⟩ : Shape).Idx → EReal) (b : (⟨2, ![1, 128]⟩ : Shape).Idx → EReal)
    (e : (⟨2, ![R, 64]⟩ : Shape).Idx → EReal) (n : Fin R) (q : Fin 64) : EReal :=
  (a (ix2 n (lo q)) + b (ix2 (0 : Fin 1) (lo q)))
    + e (ix2 n q) * Ideal.exp (min (a (ix2 n (hi q)) + b (ix2 (0 : Fin 1) (hi q))) ten)

/-- The result as an array. -/
def comb (a : Vec Ideal S100000x128 .f32) (b : Vec Ideal S1x128 .f32) (e : Vec Ideal S100000x64 .f32) :
    Vec Ideal S100000x64 .f32 :=
  fun i => combAt (R := 100000) a b e ⟨(i 0).val, (i 0).isLt⟩ ⟨(i 1).val, (i 1).isLt⟩

theorem comb_apply (a : Vec Ideal S100000x128 .f32) (b : Vec Ideal S1x128 .f32) (e : Vec Ideal S100000x64 .f32)
    (n : Fin 100000) (q : Fin 64) : comb a b e (ix2 n q) = combAt (R := 100000) a b e n q := rfl

/-- What the body stores, at an entry of the block. -/
theorem pay_apply (x0 : Vec Ideal S5000x128 .f32) (x1 : Vec Ideal S1x128 .f32) (x2 : Vec Ideal S5000x64 .f32)
    (p : Fin 5000) (q : Fin 64) :
    k1_pay1 (F := Ideal) x0 x1 x2 (ix2 p q) = combAt (R := 5000) x0 x1 x2 p q := by
  unfold k1_pay1 combAt
  have s0 : ∀ y : FVec Ideal S5000x128 .f32,
      extractStridedSlice S5000x64 ![0, 0] y slices_S5000x128_o0_0_S5000x64 (ix2 p q) = y (ix2 p (lo q)) := fun y =>
    extractStridedSlice_apply _ y slices_S5000x128_o0_0_S5000x64 (ix2 p q) (ix2 p (lo q)) (fun a => match a with
      | ⟨0, _⟩ => by show p.val = 0 + p.val; omega
      | ⟨1, _⟩ => by show q.val = 0 + q.val; omega)
  have s64 : ∀ y : FVec Ideal S5000x128 .f32,
      extractStridedSlice S5000x64 ![0, 64] y slices_S5000x128_o0_64_S5000x64 (ix2 p q) = y (ix2 p (hi q)) := fun y =>
    extractStridedSlice_apply _ y slices_S5000x128_o0_64_S5000x64 (ix2 p q) (ix2 p (hi q)) (fun a => match a with
      | ⟨0, _⟩ => by show p.val = 0 + p.val; omega
      | ⟨1, _⟩ => by show 64 + q.val = 64 + q.val; rfl)
  have key : ∀ y : FVec Ideal S5000x128 .f32,
      (addf (extractStridedSlice S5000x64 ![0, 0] y slices_S5000x128_o0_0_S5000x64)
        (mulf x2 (exp (minimumf (extractStridedSlice S5000x64 ![0, 64] y slices_S5000x128_o0_64_S5000x64)
          (broadcast S5000x64 (Scalar.ofBits (F := Ideal) .f32 0x41200000#32))))) : FVec Ideal S5000x64 .f32) (ix2 p q)
        = y (ix2 p (lo q)) + x2 (ix2 p q) * Ideal.exp (min (y (ix2 p (hi q))) ten) := fun y => by
    show (extractStridedSlice S5000x64 ![0, 0] y slices_S5000x128_o0_0_S5000x64 (ix2 p q) : EReal)
      + x2 (ix2 p q) * Ideal.exp (min (extractStridedSlice S5000x64 ![0, 64] y slices_S5000x128_o0_64_S5000x64 (ix2 p q)) ten) = _
    rw [s0, s64]
  refine (key _).trans ?_
  rw [addf_apply, addf_apply, shapeCast_self, shapeCast_self,
    RowBroadcast.broadcastTo_row_apply, RowBroadcast.broadcastTo_row_apply]

variable (V : (c : Dev nD) → (b : Ref sig .tc) → Buf (Elt Ideal) ((c : Thread nD τ).loc b))

/-- The printed index maps over the twenty points: the table's, the noise's and the result's blocks move down the rows
    with the point, the bias row's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the result of the three arrays as the launch finds them. -/
theorem flushed_eq (c : Dev nD) (t : Fin cfg1.N) :
    (dat1 V c).flushed 3 t
      = ((cfg1.win 3).blk t).view.read (Elt Ideal) (comb (V c main_v44) (V c main_v46) (V c main_arg6)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S5000x64) hz]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
    = comb (V c main_v44) (V c main_v46) (V c main_arg6) (((cfg1.win 3).blk t).view.emb (ix2 p q))
  refine (pay_apply _ _ _ p q).trans ?_
  unfold comb combAt
  refine congrArg₂ (· + ·) (congrArg₂ (· + ·) ?_ ?_)
    (congrArg₂ (· * ·) ?_ (congrArg Ideal.exp (congrArg₂ min (congrArg₂ (· + ·) ?_ ?_) rfl)))
  · show V c main_v44 (((cfg1.win 0).blk t).view.emb (ix2 p (lo q))) = V c main_v44 _
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 64 + 1 * q.val; omega
  · show V c main_v46 (((cfg1.win 1).blk t).view.emb (ix2 (0 : Fin 1) (lo q))) = V c main_v46 _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = win1_3.index t (1 : Fin 2) * 64 + 1 * q.val; omega
  · show V c main_arg6 (((cfg1.win 2).blk t).view.emb (ix2 p q)) = V c main_arg6 _
    refine congrArg _ (funext fun a => Fin.ext ?_)
    match a with
    | ⟨0, _⟩ => show win1_2.index t (0 : Fin 2) * 5000 + 1 * p.val = win1_3.index t (0 : Fin 2) * 5000 + 1 * p.val; omega
    | ⟨1, _⟩ => show win1_2.index t (1 : Fin 2) * 64 + 1 * q.val = win1_3.index t (1 : Fin 2) * 64 + 1 * q.val; omega
  · show V c main_v44 (((cfg1.win 0).blk t).view.emb (ix2 p (hi q))) = V c main_v44 _
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * (64 + q.val) = 64 + (win1_3.index t (1 : Fin 2) * 64 + 1 * q.val); omega
  · show V c main_v46 (((cfg1.win 1).blk t).view.emb (ix2 (0 : Fin 1) (hi q))) = V c main_v46 _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (64 + q.val) = 64 + (win1_3.index t (1 : Fin 2) * 64 + 1 * q.val); omega

/-- An index of the result is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v47).slice (win1_3.rect t)).set ↔ _
  rw [View.set_slice_whole, Rect.mem_set_unit]
  exact Iff.rfl

/-- The twenty blocks tile the result: row `r` is in block `r / 5000`. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_3 _, ?_⟩
  obtain ⟨e0, e1, e2, e3, e4, e5, e6, e7⟩ := idx_facts ⟨(i 0).val / 5000, by rw [hN]; omega⟩
  rw [mem_blk]
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e7]; omega

/-- The result array after the launch is that function of the three arrays as the launch found them. -/
theorem final (c : Dev nD) :
    (dat1 V c).arrAt 3 cfg1.N = comb (V c main_v44) (V c main_v46) (V c main_arg6) :=
  (dat1 V c).arrAt_eq_of_cover 3 (comb (V c main_v44) (V c main_v46) (V c main_arg6)) (fun t _ => flushed_eq V c t) cover

end Cert.KernelIdeal.Combine

end
-- ==== Proof.LibStagedRun.lean ====
/-
  Reading a long straight line of host operations piece by piece: the round trips of a module-local function.

  The buffer contents after a line of operations are a fold of the operations' results, so a line cut into consecutive
  pieces is read one piece at a time, each from ANY starting contents; a value several later operations read (a score
  array feeding a softmax) then stands for one buffer in the pieces after it instead of being repeated in every
  composed term.  An operation inside a module-local function carries its operands from their buffers' own types to the
  values' types and its result back, and a piece made of such operations composes into a term with one such round trip
  per intermediate value.  A value carried to a buffer's type and back is the value: rewriting with this fact removes
  every round trip at once, and what is left is the plain composition of the operations.
-/
import Idealize.ShloMosaic.Lib.StableHlo.Run

noncomputable section

namespace Idealize.ShloMosaic.StagedRun

open Idealize.ShloMosaic Idealize.ShloMosaic.StableHlo

variable {sig : RefSig} {Val : EltTy → Type}

/-- Contents carried to a buffer's own type and back are the contents. -/
theorem ofBuf_toBuf {T : BufTy} (x : TRef sig T) (v : T.Contents Val) : x.ofBuf (x.toBuf v) = v := by
  obtain ⟨r, h, hd, hs⟩ := x
  subst h
  rfl

end Idealize.ShloMosaic.StagedRun

end
-- ==== Proof.HostReads.lean ====
/-
  What the idealized program's buffers hold between its two launches, as functions of the arguments.

  The host side computes, from the edge list alone, the edge sources and targets with the self-loops appended, and the
  per-edge weight (the product of the two endpoint degrees' inverse square roots); it joins the two weight matrices
  along their lanes for the first launch; after the first launch it gathers the product's rows at the sources, scales
  each by its edge's weight and accumulates them at the targets; and it joins the two bias vectors into one row for the
  second launch.  The reference computes the same edge quantities with the same operations, so they are stated here in
  the reference's own vocabulary (its stage functions of the edge list): the two programs then share them by name.
-/
import proofs.«143661_j36464272343629_1_alg».proof.Proof.Gen.KernelIdeal.Frame
import proofs.«143661_j36464272343629_1_alg».proof.Proof.RefRead
import proofs.«143661_j36464272343629_1_alg».proof.Proof.LibStagedRun
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostReads

open Cert.KernelIdeal Cert.KernelIdeal.Gen
open Cert.ReferenceIdeal.ReadP (val_main_v3 val_main_v6 val_main_v12 val_main_v13 val_main_cst_2 val_main_v14 val_main_v29)

variable (m : (ℓ : Loc nD τ sig) → Buf (Elt Ideal) ℓ) (ρ : Dev nD → PrngReg)

/-! ## After the first stretch: sources, targets, and the degree's two readings -/

set_option maxHeartbeats 4000000 in
/-- The edge sources with the self-loops appended. -/
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  have e1 : W0 m ρ c (Proc.devRef .tc main_arg1) = m ((c : Thread nD τ).loc main_arg1) := rfl
  generalize W0 m ρ c = Wv at e1 ⊢
  after_results
  rw [e1]
  rfl

set_option maxHeartbeats 4000000 in
/-- The edge targets with the self-loops appended. -/
theorem W1_v6 (c : Dev nD) : W1 m ρ c (Proc.devRef .tc main_v6) = val_main_v6 (F := Ideal) (m ((c : Thread nD τ).loc main_arg1)) := by
  show StableHlo.after hostOps0 (W0 m ρ c) (Proc.devRef .tc main_v6) = _
  have e1 : W0 m ρ c (Proc.devRef .tc main_arg1) = m ((c : Thread nD τ).loc main_arg1) := rfl
  generalize W0 m ρ c = Wv at e1 ⊢
  after_results
  rw [e1]
  rfl

set_option maxHeartbeats 4000000 in
/-- Where the in-degree is positive. -/
theorem W1_v12 (c : Dev nD) : W1 m ρ c (Proc.devRef .tc main_v12) = val_main_v12 (F := Ideal) (m ((c : Thread nD τ).loc main_arg1)) := by
  show StableHlo.after hostOps0 (W0 m ρ c) (Proc.devRef .tc main_v12) = _
  have e1 : W0 m ρ c (Proc.devRef .tc main_arg1) = m ((c : Thread nD τ).loc main_arg1) := rfl
  generalize W0 m ρ c = Wv at e1 ⊢
  after_results
  rw [e1]
  rfl

set_option maxHeartbeats 4000000 in
/-- The in-degree's inverse square root. -/
theorem W1_v13 (c : Dev nD) : W1 m ρ c (Proc.devRef .tc main_v13) = val_main_v13 (F := Ideal) (m ((c : Thread nD τ).loc main_arg1)) := by
  show StableHlo.after hostOps0 (W0 m ρ c) (Proc.devRef .tc main_v13) = _
  have e1 : W0 m ρ c (Proc.devRef .tc main_arg1) = m ((c : Thread nD τ).loc main_arg1) := rfl
  generalize W0 m ρ c = Wv at e1 ⊢
  after_results
  rw [e1]
  rfl

/-- The zero the inverse square root is replaced by where the degree is zero. -/
theorem W1_cst_2 (c : Dev nD) : W1 m ρ c (Proc.devRef .tc main_cst_2) = val_main_cst_2 (F := Ideal) := by
  show StableHlo.after hostOps0 (W0 m ρ c) (Proc.devRef .tc main_cst_2) = _
  generalize W0 m ρ c = Wv
  after_results
  rfl

/-! ## After the selection: the per-node factor -/

/-- The per-node factor: the inverse square root of the in-degree, zero where the degree is zero. -/
theorem W2_v14 (c : Dev nD) : W2 m ρ c (Proc.devRef .tc main_v14) = val_main_v14 (F := Ideal) (m ((c : Thread nD τ).loc main_arg1)) := by
  show StableHlo.after hostOps0_1 (W1 m ρ c) (Proc.devRef .tc main_v14) = _
  have e12 := W1_v12 m ρ c
  have e13 := W1_v13 m ρ c
  have ec := W1_cst_2 m ρ c
  generalize W1 m ρ c = Wv at e12 e13 ec ⊢
  after_results
  rw [e12, e13, ec]
  have h12 : ∀ v : (⟨S100000, .i1⟩ : BufTy).Contents (Elt Ideal),
      (TRef.of (sig := sig) (T := ⟨S100000, .i1⟩) main_v12).ofBuf (Val := Elt Ideal) v = v := fun v => cast_eq _ _
  have h13 : ∀ v : (⟨S100000, .f32⟩ : BufTy).Contents (Elt Ideal),
      (TRef.of (sig := sig) (T := ⟨S100000, .f32⟩) main_v13).ofBuf (Val := Elt Ideal) v = v := fun v => cast_eq _ _
  have hc : ∀ v : (⟨S_, .f32⟩ : BufTy).Contents (Elt Ideal),
      (TRef.of (sig := sig) (T := ⟨S_, .f32⟩) main_cst_2).ofBuf (Val := Elt Ideal) v = v := fun v => cast_eq _ _
  simp only [StagedRun.ofBuf_toBuf]
  rw [h12, h13, hc]
  refine (cast_eq _ _).trans ?_
  rfl

theorem W2_v3 (c : Dev nD) : W2 m ρ c (Proc.devRef .tc main_v3) = val_main_v3 (F := Ideal) (m ((c : Thread nD τ).loc main_arg1)) := by
  show StableHlo.after hostOps0_1 (W1 m ρ c) (Proc.devRef .tc main_v3) = _
  have e3 := W1_v3 m ρ c
  generalize W1 m ρ c = Wv at e3 ⊢
  after_results
  exact e3

theorem W2_v6 (c : Dev nD) : W2 m ρ c (Proc.devRef .tc main_v6) = val_main_v6 (F := Ideal) (m ((c : Thread nD τ).loc main_arg1)) := by
  show StableHlo.after hostOps0_1 (W1 m ρ c) (Proc.devRef .tc main_v6) = _
  have e6 := W1_v6 m ρ c
  generalize W1 m ρ c = Wv at e6 ⊢
  after_results
  exact e6

/-! ## Before the first launch -/

set_option maxHeartbeats 4000000 in
/-- The edge sources with the self-loops appended, before the first launch. -/
theorem W3_v3 (c : Dev nD) : W3 m ρ c (Proc.devRef .tc main_v3) = val_main_v3 (F := Ideal) (m ((c : Thread nD τ).loc main_arg1)) := by
  show StableHlo.after hostOps0_2 (W2 m ρ c) (Proc.devRef .tc main_v3) = _
  have e3 := W2_v3 m ρ c
  generalize W2 m ρ c = Wv at e3 ⊢
  after_results
  exact e3

set_option maxHeartbeats 4000000 in
/-- The edge targets with the self-loops appended, before the first launch. -/
theorem W3_v6 (c : Dev nD) : W3 m ρ c (Proc.devRef .tc main_v6) = val_main_v6 (F := Ideal) (m ((c : Thread nD τ).loc main_arg1)) := by
  show StableHlo.after hostOps0_2 (W2 m ρ c) (Proc.devRef .tc main_v6) = _
  have e6 := W2_v6 m ρ c
  generalize W2 m ρ c = Wv at e6 ⊢
  after_results
  exact e6

set_option maxHeartbeats 4000000 in
/-- The per-edge weight, before the first launch: the product of the two endpoints' factors. -/
theorem W3_v29 (c : Dev nD) : W3 m ρ c (Proc.devRef .tc main_v29) = val_main_v29 (F := Ideal) (m ((c : Thread nD τ).loc main_arg1)) := by
  show StableHlo.after hostOps0_2 (W2 m ρ c) (Proc.devRef .tc main_v29) = _
  have e14 := W2_v14 m ρ c
  have e3 := W2_v3 m ρ c
  have e6 := W2_v6 m ρ c
  generalize W2 m ρ c = Wv at e14 e3 e6 ⊢
  after_results
  rw [e14, e3, e6]
  rfl

end Cert.KernelIdeal.HostReads

end
-- ==== Proof.LibRowTake.lean ====
/-
  Row lookups and row accumulations with one integer index per row, read at an index.

  `x[idx]` for a table `x : [N]` or `x : [N, C]` and an index column `idx : [R, 1]` lowers to a gather whose start
  index is the column's entry, read signed and clamped into `[0, N - 1]`; the accumulation `.at[idx].add(u)` of
  rows `u : [R, C]` into `[N, C]` lowers to a scatter whose start index is the column's entry, read signed and NOT
  clamped: a row whose index falls outside `[0, N)` is dropped.  The lemmas below say which table element a result
  element reads, and which row an update row lands in.
-/
import Idealize.ShloMosaic.Lib.ValueIdx

noncomputable section

namespace Idealize.ShloMosaic.RowTake

open Idealize.ShloMosaic Idealize.ShloMosaic.ValueIdx

/-- A signed integer clamped into the rows `[0, N - 1]` of a table with `N > 0` rows. -/
def clampRow (N : Nat) (hN : 0 < N) (v : Int) : Fin N := ⟨min v.toNat (N - 1), by omega⟩

/-- An integer that already is a row is its own clamp. -/
theorem clampRow_of_eq {N : Nat} (hN : 0 < N) (v : Int) (r : Fin N) (h : v = (r.val : Int)) : clampRow N hN v = r := by
  refine Fin.ext ?_
  show min v.toNat (N - 1) = r.val
  have := r.isLt
  subst h
  rw [Int.toNat_natCast]
  omega

/-! ## A flat table `[N]` looked up at a column `[R, 1]` of indices -/

/-- The dimension numbers of `x[idx]` for `x : [N]`, `idx : [R, 1]`, result `[R]`. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `e` reads the table at the clamp of the column's entry `e`. -/
theorem flat_operandIdx {N R w : Nat} (hN : 0 < N)
    (wf : GatherDims.WF ⟨1, ![N]⟩ ⟨2, ![R, 1]⟩ ⟨1, ![R]⟩ [] [0] [] [0] [] 1 ![1])
    (idx : IVec ⟨2, ![R, 1]⟩ w) (e : Fin R) :
    (flatDims N R wf).operandIdx (ix1 e) idx = ix1 (clampRow N hN (idx (ix2 e (0 : Fin 1))).toInt) := by
  funext a
  obtain rfl : a = 0 := Subsingleton.elim _ _
  refine Fin.ext ?_
  show (flatDims N R wf).start (ix1 e) idx 0 + (flatDims N R wf).batchCoord (ix1 e) 0
    + (flatDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 e) ⟨List.idxOf (0 : Fin 1) (flatDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A table of rows `[N, C]` looked up at a column `[R, 1]` of indices -/

/-- The dimension numbers of `x[idx]` for `x : [N, C]`, `idx : [R, 1]`, result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- On the row axis the operand index is the clamp of the column's entry. -/
theorem row_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (0 : Fin 2)).val = (clampRow N hN (idx (ix2 e (0 : Fin 1))).toInt).val := by
  show (rowDims N C R wf).start (ix2 e c) idx (0 : Fin 2) + (rowDims N C R wf).batchCoord (ix2 e c) (0 : Fin 2)
    + (rowDims N C R wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C R wf).startIndexMap from List.mem_singleton.mpr rfl)]
  have hsi : (rowDims N C R wf).siIdx (ix2 e c) ⟨List.idxOf (0 : Fin 2) (rowDims N C R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the lane axis the operand index is the result's lane. -/
theorem row_operandIdx_lane {N C R w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (1 : Fin 2)).val = c.val := by
  show (rowDims N C R wf).start (ix2 e c) idx (1 : Fin 2) + (rowDims N C R wf).batchCoord (ix2 e c) (1 : Fin 2)
    + (rowDims N C R wf).offCoord (ix2 e c) (1 : Fin 2) = _
  have h10 : (1 : Fin 2) ∉ ([0] : List (Fin 2)) := by decide
  have hs : (rowDims N C R wf).start (ix2 e c) idx (1 : Fin 2) = 0 := by
    unfold GatherDims.start
    rw [dif_neg (show (1 : Fin 2) ∉ (rowDims N C R wf).startIndexMap from h10)]
  have ho : (rowDims N C R wf).offCoord (ix2 e c) (1 : Fin 2) = c.val := by
    unfold GatherDims.offCoord
    rw [dif_pos ((GatherDims.mem_sKept _ _).mpr ⟨h10, List.not_mem_nil⟩)]
    rfl
  rw [GatherDims.batchCoord_eq_zero _ _ _ List.not_mem_nil, hs, ho]; omega

/-- Result element `(e, c)` reads the table's row at the clamp of the column's entry `e`, in lane `c`. -/
theorem row_operandIdx {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowDims N C R wf).operandIdx (ix2 e c) idx = ix2 (clampRow N hN (idx (ix2 e (0 : Fin 1))).toInt) c := by
  funext a
  refine Fin.ext ?_
  match a with
  | ⟨0, _⟩ => exact row_operandIdx_row hN wf idx e c
  | ⟨1, _⟩ => exact row_operandIdx_lane wf idx e c

/-! ## Rows `[R, C]` accumulated into a table `[N, C]` at a column `[R, 1]` of indices -/

/-- The dimension numbers of `x.at[idx].add(u)` for `x : [N, C]`, `idx : [R, 1]`, `u : [R, C]`. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update element `(e, c)` that lands on table element `i` has the column's entry `e`, read signed, equal to
    `i`'s row: the row index is not clamped, and a row outside the table lands nowhere. -/
theorem rowScatter_row_of_some {N C R w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx)
    (h : (rowScatterDims N C R wf).resultIdx? (ix2 e c) idx = some i) :
    (idx (ix2 e (0 : Fin 1))).toInt = ((i 0).val : Int) := by
  have hs : (rowScatterDims N C R wf).start (ix2 e c) idx (0 : Fin 2) = (idx (ix2 e (0 : Fin 1))).toInt := by
    unfold ScatterDims.start
    rw [dif_pos (show (0 : Fin 2) ∈ (rowScatterDims N C R wf).scatterDimsToOperandDims from List.mem_singleton.mpr rfl)]
    have hsi : (rowScatterDims N C R wf).siIdx (ix2 e c) ⟨List.idxOf (0 : Fin 2) (rowScatterDims N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N C R wf).window (ix2 e c) (0 : Fin 2) = 0 := by
    unfold ScatterDims.window
    rw [dif_neg (show (0 : Fin 2) ∉ (rowScatterDims N C R wf).sKept from
      (by decide : (0 : Fin 2) ∉ (List.finRange 2).filter (fun a => a ∉ ([0] : List (Fin 2)))))]
  unfold ScatterDims.resultIdx? at h
  split at h
  · rename_i hin
    have h0 := congrArg (fun f => (f (0 : Fin 2)).val) (Option.some.inj h)
    have hb := hin (0 : Fin 2)
    rw [hs, hw] at hb
    simp only [hs, hw] at h0
    have h0' : ((idx (ix2 e (0 : Fin 1))).toInt + ((0 : Nat) : Int)).toNat = (i 0).val := h0
    omega
  · exact absurd h (by simp)

end Idealize.ShloMosaic.RowTake

end
-- ==== Proof.LibRowScatter.lean ====
/-
  Rows accumulated into a table and rows looked up in a table, with one integer index per row, as sums and reads
  by coordinates; and a block of columns of a matrix read by coordinates.

  For a table `x : [N, C]`, an index column `idx : [R, 1]` and rows `u : [R, C]`:
  • an update element `(e, c)` lands on table element `(n, c')` exactly when the column's entry `e`, read signed,
    is `n` and `c = c'` (`rowScatter_some_iff`; the closed form of where it lands is `rowScatter_resultIdx`);
  • so the accumulation `x.at[idx].add(u)` is, at `(n, c)`, `x (n, c)` plus the sum of `u (e, c)` over the rows `e`
    whose entry is `n` (`rowScatterAdd_apply`): a row whose entry is outside `[0, N)` contributes to no element;
  • the lookup `x[idx]` is, at `(e, c)`, `x` at the row "entry `e` clamped into `[0, N − 1]`", lane `c`
    (`rowGather_apply`);
  • the columns `[o, o + b)` of an `[a, b']` matrix read, at `(p, q)`, the matrix at `(p, o + q)` (`colSlice_apply`).
-/
import Idealize.ShloMosaic.Lib.ValueIdx
import Idealize.ShloMosaic.Lib.Pipeline.Value
import Idealize.ShloMosaic.PureOps.Ideal.Laws
import proofs.«143661_j36464272343629_1_alg».proof.Proof.LibRowTake

open scoped BigOperators

noncomputable section

namespace Idealize.ShloMosaic.RowScatter

open Idealize.ShloMosaic Idealize.ShloMosaic.ValueIdx Idealize.ShloMosaic.RowTake

/-! ## Where an update element lands -/

section Land
variable {N C R w : Nat} (wf : ScatterDims.WF ⟨2, ![N, C]⟩ ⟨2, ![R, 1]⟩ ⟨2, ![R, C]⟩ [1] [0] [0] 1)
  (idx : IVec ⟨2, ![R, 1]⟩ w) (e : Fin R) (c : Fin C)

/-- On the row axis the window starts at the column's entry `e`, read signed. -/
theorem start_row :
    (rowScatterDims N C R wf).start (ix2 e c) idx (0 : Fin 2) = (idx (ix2 e (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 e c) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the lane axis the window starts at `0`: the start index has no component for it. -/
theorem start_lane : (rowScatterDims N C R wf).start (ix2 e c) idx (1 : Fin 2) = 0 := by
  unfold ScatterDims.start
  rw [dif_neg (show (1 : Fin 2) ∉ (rowScatterDims N C R wf).scatterDimsToOperandDims from
    (by decide : (1 : Fin 2) ∉ ([0] : List (Fin 2))))]

/-- The row axis is an inserted one: the window coordinate on it is `0`. -/
theorem window_row : (rowScatterDims N C R wf).window (ix2 e c) (0 : Fin 2) = 0 := by
  unfold ScatterDims.window
  rw [dif_neg (show (0 : Fin 2) ∉ (rowScatterDims N C R wf).sKept from
    (by decide : (0 : Fin 2) ∉ (List.finRange 2).filter (fun a => a ∉ ([0] : List (Fin 2)))))]

/-- On the lane axis the window coordinate is the update's lane. -/
theorem window_lane : (rowScatterDims N C R wf).window (ix2 e c) (1 : Fin 2) = c.val := by
  unfold ScatterDims.window
  rw [dif_pos (show (1 : Fin 2) ∈ (rowScatterDims N C R wf).sKept from
    (by decide : (1 : Fin 2) ∈ (List.finRange 2).filter (fun a => a ∉ ([0] : List (Fin 2)))))]
  rfl

/-- Where update element `(e, c)` lands: on row "the column's entry `e`, read signed", lane `c`, when that entry is a
    row of the table; nowhere when it is not. -/
theorem rowScatter_resultIdx :
    (rowScatterDims N C R wf).resultIdx? (ix2 e c) idx
      = if h : 0 ≤ (idx (ix2 e (0 : Fin 1))).toInt ∧ (idx (ix2 e (0 : Fin 1))).toInt < (N : Int)
        then some (ix2 (⟨(idx (ix2 e (0 : Fin 1))).toInt.toNat, by omega⟩ : Fin N) c) else none := by
  have hN : ((⟨2, ![N, C]⟩ : Shape).size (0 : Fin 2)) = N := rfl
  have hC : ((⟨2, ![N, C]⟩ : Shape).size (1 : Fin 2)) = C := rfl
  unfold ScatterDims.resultIdx?
  split
  · rename_i hall
    have h0 := hall (0 : Fin 2)
    rw [start_row, window_row, hN] at h0
    rw [dif_pos (by omega)]
    congr 1
    funext a
    refine Fin.ext ?_
    match a with
    | ⟨0, _⟩ =>
      show ((rowScatterDims N C R wf).start (ix2 e c) idx (0 : Fin 2)
        + ((rowScatterDims N C R wf).window (ix2 e c) (0 : Fin 2) : Nat)).toNat = (idx (ix2 e (0 : Fin 1))).toInt.toNat
      rw [start_row, window_row]; omega
    | ⟨1, _⟩ =>
      show ((rowScatterDims N C R wf).start (ix2 e c) idx (1 : Fin 2)
        + ((rowScatterDims N C R wf).window (ix2 e c) (1 : Fin 2) : Nat)).toNat = c.val
      rw [start_lane, window_lane]; omega
  · rename_i hall
    rw [dif_neg]
    intro hv
    refine hall fun a => ?_
    match a with
    | ⟨0, _⟩ =>
      show 0 ≤ (rowScatterDims N C R wf).start (ix2 e c) idx (0 : Fin 2)
          + ((rowScatterDims N C R wf).window (ix2 e c) (0 : Fin 2) : Nat)
        ∧ (rowScatterDims N C R wf).start (ix2 e c) idx (0 : Fin 2)
          + ((rowScatterDims N C R wf).window (ix2 e c) (0 : Fin 2) : Nat) < (((⟨2, ![N, C]⟩ : Shape).size (0 : Fin 2) : Nat) : Int)
      rw [start_row, window_row, hN]; omega
    | ⟨1, _⟩ =>
      show 0 ≤ (rowScatterDims N C R wf).start (ix2 e c) idx (1 : Fin 2)
          + ((rowScatterDims N C R wf).window (ix2 e c) (1 : Fin 2) : Nat)
        ∧ (rowScatterDims N C R wf).start (ix2 e c) idx (1 : Fin 2)
          + ((rowScatterDims N C R wf).window (ix2 e c) (1 : Fin 2) : Nat) < (((⟨2, ![N, C]⟩ : Shape).size (1 : Fin 2) : Nat) : Int)
      rw [start_lane, window_lane, hC]; have := c.isLt; omega

end Land

/-- An update element `(e, c)` lands on table element `(n, c')` exactly when the column's entry `e`, read signed, is
    the row `n` and the lanes agree. -/
theorem rowScatter_some_iff {N C R w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (n : Fin N) (c' : Fin C) :
    (rowScatterDims N C R wf).resultIdx? (ix2 e c) idx = some (ix2 n c')
      ↔ (idx (ix2 e (0 : Fin 1))).toInt = (n.val : Int) ∧ c = c' := by
  rw [rowScatter_resultIdx]
  constructor
  · intro h
    split at h
    · have h' := Option.some.inj h
      have hr := congrArg (fun f : (⟨2, ![N, C]⟩ : Shape).Idx => (f (0 : Fin 2)).val) h'
      have hl := congrArg (fun f : (⟨2, ![N, C]⟩ : Shape).Idx => f (1 : Fin 2)) h'
      have hr' : (idx (ix2 e (0 : Fin 1))).toInt.toNat = n.val := hr
      have hl' : c = c' := hl
      exact ⟨by omega, hl'⟩
    · exact absurd h (by simp)
  · rintro ⟨hv, rfl⟩
    have hn := n.isLt
    rw [dif_pos (by omega)]
    congr 2
    refine Fin.ext ?_
    show (idx (ix2 e (0 : Fin 1))).toInt.toNat = n.val
    omega

/-! ## The accumulation read at an element -/

/-- `x.at[idx].add(u)` at `(n, c)`: `x (n, c)` plus the sum, over the rows `e` whose index entry (read signed) is `n`,
    of `u (e, c)`.  The sum over the update elements that land on `(n, c)` is re-indexed by the row: in row `e` the one
    lane that can land there is `c`. -/
theorem rowScatterAdd_apply {N C R w : Nat}
    (wf : ScatterDims.WF ⟨2, ![N, C]⟩ ⟨2, ![R, 1]⟩ ⟨2, ![R, C]⟩ [1] [0] [0] 1)
    (idx : IVec ⟨2, ![R, 1]⟩ w) (x : FVec Ideal ⟨2, ![N, C]⟩ .f32) (u : FVec Ideal ⟨2, ![R, C]⟩ .f32)
    (n : Fin N) (c : Fin C) :
    Host.scatterAdd (rowScatterDims N C R wf) x idx u (ix2 n c)
      = x (ix2 n c) + ∑ e ∈ Finset.univ.filter (fun e : Fin R => (idx (ix2 e (0 : Fin 1))).toInt = (n.val : Int)),
          u (ix2 e c) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [rowScatter_some_iff]
  by_cases hv : (idx (ix2 e (0 : Fin 1))).toInt = (n.val : Int)
  · simp [hv]
  · simp [hv]

/-! ## The lookup read at an element -/

/-- `x[idx]` at `(e, c)` for a table of any values: the table's row at the clamp of the column's entry `e`, lane `c`. -/
theorem gatherRow_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowDims N C R wf) x idx (ix2 e c) = x (ix2 (clampRow N hN (idx (ix2 e (0 : Fin 1))).toInt) c) := by
  unfold Host.gather
  rw [row_operandIdx hN wf idx e c]

/-- `x[idx]` at `(e, c)` on the extended reals. -/
theorem rowGather_apply {N C R w : Nat} (hN : 0 < N)
    (wf : GatherDims.WF ⟨2, ![N, C]⟩ ⟨2, ![R, 1]⟩ ⟨2, ![R, C]⟩ [1] [0] [] [0] [] 1 ![1, C])
    (x : FVec Ideal ⟨2, ![N, C]⟩ .f32) (idx : IVec ⟨2, ![R, 1]⟩ w) (e : Fin R) (c : Fin C) :
    Host.gather (rowDims N C R wf) x idx (ix2 e c) = x (ix2 (clampRow N hN (idx (ix2 e (0 : Fin 1))).toInt) c) :=
  gatherRow_apply hN wf x idx e c

/-! ## A block of columns read at an element -/

/-- The `b` columns from `o` of an `[a, b']` matrix read, at `(p, q)`, the matrix at `(p, o + q)`. -/
theorem colSlice_apply {α : Type} {a b b' : Nat} (o : Nat) (x : (⟨2, ![a, b']⟩ : Shape).Idx → α)
    (h : (⟨2, ![a, b']⟩ : Shape).Slices ![0, o] ⟨2, ![a, b]⟩) (p : Fin a) (q : Fin b) :
    extractStridedSlice ⟨2, ![a, b]⟩ ![0, o] x h (ix2 p q)
      = x (ix2 p ⟨o + q.val, Nat.lt_of_lt_of_le (Nat.add_lt_add_left q.isLt o) (h.2 1)⟩) :=
  extractStridedSlice_apply _ _ _ _ _ (fun ax => by
    match ax with
    | ⟨0, _⟩ => exact (Nat.zero_add _).symm
    | ⟨1, _⟩ => rfl)

end Idealize.ShloMosaic.RowScatter

end
-- ==== Proof.LibHostKeepdims.lean ====
/-
  Reading the host's "keep the reduced axis as a unit axis" operations at an index.

  A host sum over the last axis of an `[a, b]` array kept as an `[a, 1]` column is met as: the sum to `[a]` from a
  zero scalar, a `broadcast_in_dim` of `[a]` to the column `[a, 1]`, and later a `broadcast_in_dim` of the column
  over `b` lanes; a scalar constant reaches a shape by `broadcast_in_dim` with no dimensions.  Each lemma reads one of
  them at an index built from coordinates.
-/
import Idealize.ShloMosaic.Lib.Pipeline.Value
import Idealize.ShloMosaic.Lib.ValueIdx
import Idealize.ShloMosaic.PureOps.Ideal.Laws

noncomputable section

namespace Idealize.ShloMosaic.HostKeepdims

open Idealize.ShloMosaic Idealize.ShloMosaic.ValueIdx

variable {α : Type}

/-- The host's sum over the last axis of an `[a, b]` array, started from the zero scalar, at row `r`, is the sum of
    the row's entries (the reduction's two shape facts are the caller's, decided at its literal shapes). -/
theorem hostRowSum_apply {a b : ℕ} (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd v (constant (F := Ideal) ⟨0, ![]⟩ .f32 0x00000000#32) h' hu (ix1 r) = ∑ k : Fin b, v (ix2 r k) := by
  show Ideal.hostReduceAdd h' v (Ideal.ofBits .f32 0x00000000#32) (ix1 r) = _
  rw [Ideal.hostReduceAdd_single h' h, Ideal.ofBits_zero_f32, zero_add]
  exact Finset.sum_congr rfl fun k _ => congrArg v (funext fun ax => Fin.ext (by
    match ax with
    | ⟨0, _⟩ => rfl
    | ⟨1, _⟩ => rfl))

/-- An `[a]` array laid as the column `[a, 1]` by `broadcast_in_dim` along axis 0 reads, at `(r, u)`, the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h x (ix2 r u) = x (ix1 r) :=
  broadcastInDim_apply _ h x (ix2 r u) (ix1 r) fun ax => by
    match ax with
    | ⟨0, _⟩ =>
      show r.val = if a = 1 then 0 else r.val
      split
      · have := r.isLt; omega
      · rfl

/-- A scalar sent to any shape by `broadcast_in_dim` with no dimensions reads, everywhere, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

/-- A column `[a, 1]` sent over `b` lanes by `broadcast_in_dim` along axes 0 and 1 reads, at `(r, c)`, the column at row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (c : Fin b) :
    broadcastInDim ⟨2, ![a, b]⟩ (![0, 1] : Fin 2 → Fin 2) h x (ix2 r c) = x (ix2 r (0 : Fin 1)) :=
  broadcastInDim_apply _ h x (ix2 r c) (ix2 r (0 : Fin 1)) fun ax => by
    match ax with
    | ⟨0, _⟩ =>
      show r.val = if a = 1 then 0 else r.val
      split
      · have := r.isLt; omega
      · rfl
    | ⟨1, _⟩ =>
      show (0 : ℕ) = if (1 : ℕ) = 1 then 0 else c.val
      rw [if_pos rfl]

end Idealize.ShloMosaic.HostKeepdims

end
-- ==== Proof.LibAggLane.lean ====
/-
  Messages gathered from a table of rows, weighted per row, and accumulated into a table: one lane at a time.

  For a table `h : [N, C]`, a column `src : [R, 1]` of row indices, a column `nrm : [R, 1]` of weights and a column
  `dst : [R, 1]` of target rows, the accumulated table is, at `(n, c)`,
      z (n, c) + Σ over the rows e whose target is n of  h (clamp (src e), c) · nrm e .
  Which rows contribute, which row of the table each reads and its weight do not depend on the lane, and lane `c` of the
  result reads lane `c` of the table only.  So two tables of different widths that agree on a pair of lanes `c`, `c'`
  give accumulated tables that agree on the same pair: a table of concatenated lanes is aggregated lane by lane.
-/
import Idealize.ShloMosaic.Lib.ValueIdx
import Idealize.ShloMosaic.Lib.Pipeline.Value
import Idealize.ShloMosaic.PureOps.Ideal.Laws
import proofs.«143661_j36464272343629_1_alg».proof.Proof.LibRowScatter
import proofs.«143661_j36464272343629_1_alg».proof.Proof.LibHostKeepdims

open scoped BigOperators

noncomputable section

namespace Cert.AggLane

open Idealize.ShloMosaic Idealize.ShloMosaic.ValueIdx Idealize.ShloMosaic.RowTake Idealize.ShloMosaic.RowScatter
  Idealize.ShloMosaic.HostKeepdims

/-- The accumulated table at `(n, c)`: the operand's entry plus, over the rows `e` whose target (read signed) is `n`,
    the table's row "source of `e`, clamped", lane `c`, times the weight of `e`. -/
theorem agg_apply {N C R : ℕ} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (hb : (⟨2, ![R, 1]⟩ : Shape).BroadcastsInDim ⟨2, ![R, C]⟩ (![0, 1] : Fin 2 → Fin 2))
    (z h : FVec Ideal ⟨2, ![N, C]⟩ .f32) (src dst : IVec ⟨2, ![R, 1]⟩ 32) (nrm : FVec Ideal ⟨2, ![R, 1]⟩ .f32)
    (n : Fin N) (c : Fin C) :
    Host.scatterAdd (rowScatterDims N C R wfS) z dst
        (mulf (Host.gather (rowDims N C R wfG) h src) (broadcastInDim ⟨2, ![R, C]⟩ (![0, 1] : Fin 2 → Fin 2) hb nrm)) (ix2 n c)
      = z (ix2 n c) + ∑ e ∈ Finset.univ.filter (fun e : Fin R => (dst (ix2 e (0 : Fin 1))).toInt = (n.val : Int)),
          h (ix2 (clampRow N hN (src (ix2 e (0 : Fin 1))).toInt) c) * nrm (ix2 e (0 : Fin 1)) := by
  rw [rowScatterAdd_apply]
  congr 1
  refine Finset.sum_congr rfl fun e _ => ?_
  rw [mulf_apply, rowGather_apply hN, bcast_a1_ab_apply]

/-- Two tables that agree on the lanes `c` and `c'` give accumulated tables that agree on them, when the operands
    accumulated into agree there too. -/
theorem agg_lane {N C C' R : ℕ} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (hb : (⟨2, ![R, 1]⟩ : Shape).BroadcastsInDim ⟨2, ![R, C]⟩ (![0, 1] : Fin 2 → Fin 2))
    (wfS' : ScatterDims.WF ⟨2, ![N, C']⟩ ⟨2, ![R, 1]⟩ ⟨2, ![R, C']⟩ [1] [0] [0] 1)
    (wfG' : GatherDims.WF ⟨2, ![N, C']⟩ ⟨2, ![R, 1]⟩ ⟨2, ![R, C']⟩ [1] [0] [] [0] [] 1 ![1, C'])
    (hb' : (⟨2, ![R, 1]⟩ : Shape).BroadcastsInDim ⟨2, ![R, C']⟩ (![0, 1] : Fin 2 → Fin 2))
    (z h : FVec Ideal ⟨2, ![N, C]⟩ .f32) (z' h' : FVec Ideal ⟨2, ![N, C']⟩ .f32)
    (src dst : IVec ⟨2, ![R, 1]⟩ 32) (nrm : FVec Ideal ⟨2, ![R, 1]⟩ .f32)
    (n : Fin N) (c : Fin C) (c' : Fin C')
    (hz : z (ix2 n c) = z' (ix2 n c')) (hh : ∀ r : Fin N, h (ix2 r c) = h' (ix2 r c')) :
    Host.scatterAdd (rowScatterDims N C R wfS) z dst
        (mulf (Host.gather (rowDims N C R wfG) h src) (broadcastInDim ⟨2, ![R, C]⟩ (![0, 1] : Fin 2 → Fin 2) hb nrm)) (ix2 n c)
      = Host.scatterAdd (rowScatterDims N C' R wfS') z' dst
        (mulf (Host.gather (rowDims N C' R wfG') h' src) (broadcastInDim ⟨2, ![R, C']⟩ (![0, 1] : Fin 2 → Fin 2) hb' nrm)) (ix2 n c') := by
  rw [agg_apply hN, agg_apply hN, hz]
  congr 1
  exact Finset.sum_congr rfl fun e _ => by rw [hh]

end Cert.AggLane

end
-- ==== Proof.KernelValue.lean ====
/-
  The idealized program's result as one function of its arguments.

  After the run the result buffer holds what the second launch's write-backs folded, which is the reparameterisation
  step (Region1) of three arrays as that launch found them: the aggregated table, the bias row and the noise.  The noise
  is the argument; the bias row is the two bias vectors joined and laid as a row; the aggregated table is the host's
  gather–scale–accumulate of what the first launch left, and the first launch left the product (Region0) of the
  feature argument with the two weight matrices joined along their lanes.
-/
import proofs.«143661_j36464272343629_1_alg».proof.Proof.RunNamed
import proofs.«143661_j36464272343629_1_alg».proof.Proof.Region0
import proofs.«143661_j36464272343629_1_alg».proof.Proof.Region1
import proofs.«143661_j36464272343629_1_alg».proof.Proof.HostReads
import proofs.«143661_j36464272343629_1_alg».proof.Proof.LibAggLane

set_option maxRecDepth 16384

noncomputable section

open Idealize.ShloMosaic Idealize.ShloMosaic.TcCoe Idealize.SL.Sem Idealize.ShloMosaic.StableHlo
open Idealize.ShloMosaic.RowTake

namespace Cert.KernelIdeal.Whole

open Cert.KernelIdeal Cert.KernelIdeal.Gen
open Cert.ReferenceIdeal.ReadP (val_main_v3 val_main_v6 val_main_v29 val_main_v36 val_main_v38 val_main_v42)

/-- The two weight matrices joined along their lanes. -/
def wcat (x2 x4 : Vec Ideal S128x64 .f32) : Vec Ideal S128x128 .f32 :=
  concatenate S128x128 1 [⟨S128x64, x2⟩, ⟨S128x64, x4⟩] Facts₀.concatenates_S128x64_S128x64_S128x128_d1

/-- The two bias vectors joined and laid as one row. -/
def brow (x3 x5 : Vec Ideal S64 .f32) : Vec Ideal S1x128 .f32 :=
  broadcastInDim S1x128 ![1] Facts₀.bcast_S128_S1x128_1
    (concatenate S128 0 [⟨S64, x3⟩, ⟨S64, x5⟩] Facts₀.concatenates_S64_S64_S128_d0)

/-- The aggregated table: the rows of `h` gathered at the edge sources, each scaled by its edge's weight, accumulated
    at the edge targets; sources, targets and weights the reference's stage functions of the edge list `x1`. -/
def atab (h : Vec Ideal S100000x128 .f32) (x1 : IVec S2x1600000 32) : Vec Ideal S100000x128 .f32 :=
  Host.scatterAdd
    (rowScatterDims 100000 128 1700000 Facts₀.scatter_S100000x128_S1700000x1_S1700000x128_1_0_0_1_wf)
    (broadcastInDim S100000x128 ![] Facts₀.bcast_S_S100000x128 (constant (F := Ideal) S_ .f32 0x00000000#32))
    (val_main_v42 (F := Ideal) x1)
    (mulf (Host.gather
        (rowDims 100000 128 1700000 Facts₀.gather_S100000x128_S1700000x1_S1700000x128_1_0_n_n_0_1_1128_wf)
        h (val_main_v36 (F := Ideal) x1))
      (broadcastInDim S1700000x128 ![0, 1] Facts₀.bcast_S1700000x1_S1700000x128_0_1 (val_main_v38 (F := Ideal) x1)))

/-- The result as a function of the seven arguments. -/
def result (x0 : Vec Ideal S100000x128 .f32) (x1 : IVec S2x1600000 32) (x2 : Vec Ideal S128x64 .f32)
    (x3 : Vec Ideal S64 .f32) (x4 : Vec Ideal S128x64 .f32) (x5 : Vec Ideal S64 .f32)
    (x6 : Vec Ideal S100000x64 .f32) : Vec Ideal S100000x64 .f32 :=
  Combine.comb (atab (Dense.prod x0 (wcat x2 x4)) x1) (brow x3 x5) x6

variable (m : (ℓ : Loc nD τ sig) → Buf (Elt Ideal) ℓ) (ρ : Dev nD → PrngReg)

/-- An argument buffer before the first launch holds what it was launched with. -/
theorem V3_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results

set_option maxHeartbeats 4000000 in
/-- The joined weight matrices before the first launch. -/
theorem V3_v30 (c : Dev nD) :
    V3 m ρ c main_v30 = wcat (m ((c : Thread nD τ).loc main_arg2)) (m ((c : Thread nD τ).loc main_arg4)) := by
  show StableHlo.after hostOps0_2 (W2 m ρ c) (Proc.devRef .tc main_v30) = _
  have e2 : W2 m ρ c (Proc.devRef .tc main_arg2) = m ((c : Thread nD τ).loc main_arg2) := by
    show StableHlo.after hostOps0_1 (StableHlo.after hostOps0 (W0 m ρ c)) (Proc.devRef .tc main_arg2) = _
    after_results
  have e4 : W2 m ρ c (Proc.devRef .tc main_arg4) = m ((c : Thread nD τ).loc main_arg4) := by
    show StableHlo.after hostOps0_1 (StableHlo.after hostOps0 (W0 m ρ c)) (Proc.devRef .tc main_arg4) = _
    after_results
  generalize W2 m ρ c = Wv at e2 e4 ⊢
  after_results
  rw [e2, e4]
  rfl

/-- What the first launch leaves: the product of the features with the joined weights. -/
theorem W4_v31 (c : Dev nD) :
    W4 m ρ c (Proc.devRef .tc main_v31)
      = Dense.prod (m ((c : Thread nD τ).loc main_arg0))
          (wcat (m ((c : Thread nD τ).loc main_arg2)) (m ((c : Thread nD τ).loc main_arg4))) := by
  refine (W4_arr m ρ c 2).trans ((Dense.final (V3 m ρ) c).trans ?_)
  rw [V3_arg0, V3_v30]

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results

theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results

set_option maxHeartbeats 4000000 in
/-- The aggregated table as the second launch finds it. -/
theorem V5_v44 (c : Dev nD) :
    V5 m ρ c main_v44
      = atab (Dense.prod (m ((c : Thread nD τ).loc main_arg0))
          (wcat (m ((c : Thread nD τ).loc main_arg2)) (m ((c : Thread nD τ).loc main_arg4))))
          (m ((c : Thread nD τ).loc main_arg1)) := by
  show StableHlo.after hostOps1 (W4 m ρ c) (Proc.devRef .tc main_v44) = _
  have e6 : W4 m ρ c (Proc.devRef .tc main_v6) = val_main_v6 (F := Ideal) (m ((c : Thread nD τ).loc main_arg1)) :=
    (W4_of_ne m ρ c main_v6 (by decide)).trans (HostReads.W3_v6 m ρ c)
  have e3 : W4 m ρ c (Proc.devRef .tc main_v3) = val_main_v3 (F := Ideal) (m ((c : Thread nD τ).loc main_arg1)) :=
    (W4_of_ne m ρ c main_v3 (by decide)).trans (HostReads.W3_v3 m ρ c)
  have e29 : W4 m ρ c (Proc.devRef .tc main_v29) = val_main_v29 (F := Ideal) (m ((c : Thread nD τ).loc main_arg1)) :=
    (W4_of_ne m ρ c main_v29 (by decide)).trans (HostReads.W3_v29 m ρ c)
  have e31 := W4_v31 m ρ c
  generalize W4 m ρ c = Wv at e6 e3 e29 e31 ⊢
  after_results
  rw [e6, e3, e29, e31]
  rfl

set_option maxHeartbeats 4000000 in
/-- The bias row as the second launch finds it. -/
theorem V5_v46 (c : Dev nD) :
    V5 m ρ c main_v46 = brow (m ((c : Thread nD τ).loc main_arg3)) (m ((c : Thread nD τ).loc main_arg5)) := by
  show StableHlo.after hostOps1 (W4 m ρ c) (Proc.devRef .tc main_v46) = _
  have e3 : W4 m ρ c (Proc.devRef .tc main_arg3) = m ((c : Thread nD τ).loc main_arg3) :=
    (W4_of_ne m ρ c main_arg3 (by decide)).trans (W3_arg3 m ρ c)
  have e5 : W4 m ρ c (Proc.devRef .tc main_arg5) = m ((c : Thread nD τ).loc main_arg5) :=
    (W4_of_ne m ρ c main_arg5 (by decide)).trans (W3_arg5 m ρ c)
  generalize W4 m ρ c = Wv at e3 e5 ⊢
  after_results
  rw [e3, e5]
  rfl

/-- The noise as the second launch finds it. -/
theorem V5_arg6 (c : Dev nD) : V5 m ρ c main_arg6 = m ((c : Thread nD τ).loc main_arg6) := by
  show StableHlo.after hostOps1 (W4 m ρ c) (Proc.devRef .tc main_arg6) = _
  have e6 : W4 m ρ c (Proc.devRef .tc main_arg6) = m ((c : Thread nD τ).loc main_arg6) :=
    (W4_of_ne m ρ c main_arg6 (by decide)).trans (W3_arg6 m ρ c)
  generalize W4 m ρ c = Wv at e6 ⊢
  after_results
  exact e6

/-- The result buffer after the run. -/
theorem W6_v47 (c : Dev nD) :
    W6 m ρ c (Proc.devRef .tc main_v47)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine (W6_arr m ρ c 3).trans ((Combine.final (V5 m ρ) c).trans ?_)
  rw [V5_v44, V5_v46, V5_arg6]
  rfl

/-- The run, read: the result at that function of the arguments, the arguments unchanged. -/
theorem run : θ_run defs (onTc (τ := τ) (main (F := Ideal))) ⟨m, fun _ => 0, ρ⟩ (fun r => ∀ c : Dev nD,
      r.2.mem ((c.tc : Thread nD τ).loc main_v47)
        = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W6_v47 m ρ c), (h c).2⟩) (Named.run_named m ρ)

end Cert.KernelIdeal.Whole

end
-- ==== Proof.LibJoinLanes.lean ====
/-
  Arrays joined along their lanes, read at an entry.

  Three `[n, a]`, `[n, b]`, `[n, c]` arrays joined along axis 1 give an `[n, w]` array whose entry `(p, q)` is the
  first piece's `(p, q)` for `q < a`, the second's `(p, q - a)` for `a ≤ q < a + b`, the third's `(p, q - a - b)`
  beyond; two arrays likewise.  The kernel joins blocks of rows and the host whole arrays with the same operation, so
  these readings serve both.
-/
import Idealize.ShloMosaic.Lib.ValueIdx
import Idealize.ShloMosaic.Lib.Pipeline.Value

noncomputable section

namespace Cert.Join

open Idealize.ShloMosaic Idealize.ShloMosaic.ValueIdx

variable {n a b c w : ℕ} {α : Type}

/-- Three pieces, an entry in the first. -/
theorem join3_first (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, w]⟩ 1)
    (p : Fin n) (q : Fin w) (hq : q.val < a) :
    concatenate ⟨2, ![n, w]⟩ 1 [⟨⟨2, ![n, a]⟩, x⟩, ⟨⟨2, ![n, b]⟩, y⟩, ⟨⟨2, ![n, c]⟩, z⟩] h (ix2 p q)
      = x (ix2 p ⟨q.val, hq⟩) :=
  concatenate_apply_piece (t := ⟨2, ![n, w]⟩) (1 : Fin 2) [⟨⟨2, ![n, a]⟩, x⟩, ⟨⟨2, ![n, b]⟩, y⟩, ⟨⟨2, ![n, c]⟩, z⟩] h (ix2 p q) 0 (by show (0 : ℕ) < 3; omega) ⟨2, ![n, a]⟩ x rfl rfl 0 rfl (ix2 p ⟨q.val, hq⟩)
    (fun ax hax => match ax with
      | ⟨0, _⟩ => rfl
      | ⟨1, _⟩ => absurd rfl hax)
    (Nat.zero_add _)

/-- Three pieces, an entry in the second. -/
theorem join3_second (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, w]⟩ 1)
    (p : Fin n) (q : Fin w) (q' : Fin b) (hq : a + q'.val = q.val) :
    concatenate ⟨2, ![n, w]⟩ 1 [⟨⟨2, ![n, a]⟩, x⟩, ⟨⟨2, ![n, b]⟩, y⟩, ⟨⟨2, ![n, c]⟩, z⟩] h (ix2 p q)
      = y (ix2 p q') :=
  concatenate_apply_piece (t := ⟨2, ![n, w]⟩) (1 : Fin 2) [⟨⟨2, ![n, a]⟩, x⟩, ⟨⟨2, ![n, b]⟩, y⟩, ⟨⟨2, ![n, c]⟩, z⟩] h (ix2 p q) 1 (by show (1 : ℕ) < 3; omega) ⟨2, ![n, b]⟩ y rfl rfl a rfl (ix2 p q')
    (fun ax hax => match ax with
      | ⟨0, _⟩ => rfl
      | ⟨1, _⟩ => absurd rfl hax)
    hq

/-- Three pieces, an entry in the third. -/
theorem join3_third (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, w]⟩ 1)
    (p : Fin n) (q : Fin w) (q' : Fin c) (hq : a + b + q'.val = q.val) :
    concatenate ⟨2, ![n, w]⟩ 1 [⟨⟨2, ![n, a]⟩, x⟩, ⟨⟨2, ![n, b]⟩, y⟩, ⟨⟨2, ![n, c]⟩, z⟩] h (ix2 p q)
      = z (ix2 p q') :=
  concatenate_apply_piece (t := ⟨2, ![n, w]⟩) (1 : Fin 2) [⟨⟨2, ![n, a]⟩, x⟩, ⟨⟨2, ![n, b]⟩, y⟩, ⟨⟨2, ![n, c]⟩, z⟩] h (ix2 p q) 2 (by show (2 : ℕ) < 3; omega) ⟨2, ![n, c]⟩ z rfl rfl (a + b)
    (by show a + (b + 0) = a + b; rw [Nat.add_zero]) (ix2 p q')
    (fun ax hax => match ax with
      | ⟨0, _⟩ => rfl
      | ⟨1, _⟩ => absurd rfl hax)
    hq

/-- Two pieces, an entry in the first. -/
theorem join2_first (x : (⟨2, ![n, a]⟩ : Shape).Idx → α) (y : (⟨2, ![n, b]⟩ : Shape).Idx → α)
    (h : Shape.Concatenates [(⟨2, ![n, a]⟩ : Shape), ⟨2, ![n, b]⟩] ⟨2, ![n, w]⟩ 1)
    (p : Fin n) (q : Fin w) (hq : q.val < a) :
    concatenate ⟨2, ![n, w]⟩ 1 [⟨⟨2, ![n, a]⟩, x⟩, ⟨⟨2, ![n, b]⟩, y⟩] h (ix2 p q) = x (ix2 p ⟨q.val, hq⟩) :=
  concatenate_apply_piece (t := ⟨2, ![n, w]⟩) (1 : Fin 2) [⟨⟨2, ![n, a]⟩, x⟩, ⟨⟨2, ![n, b]⟩, y⟩] h (ix2 p q) 0 (by show (0 : ℕ) < 2; omega) ⟨2, ![n, a]⟩ x rfl rfl 0 rfl (ix2 p ⟨q.val, hq⟩)
    (fun ax hax => match ax with
      | ⟨0, _⟩ => rfl
      | ⟨1, _⟩ => absurd rfl hax)
    (Nat.zero_add _)

/-- Two pieces, an entry in the second. -/
theorem join2_second (x : (⟨2, ![n, a]⟩ : Shape).Idx → α) (y : (⟨2, ![n, b]⟩ : Shape).Idx → α)
    (h : Shape.Concatenates [(⟨2, ![n, a]⟩ : Shape), ⟨2, ![n, b]⟩] ⟨2, ![n, w]⟩ 1)
    (p : Fin n) (q : Fin w) (q' : Fin b) (hq : a + q'.val = q.val) :
    concatenate ⟨2, ![n, w]⟩ 1 [⟨⟨2, ![n, a]⟩, x⟩, ⟨⟨2, ![n, b]⟩, y⟩] h (ix2 p q) = y (ix2 p q') :=
  concatenate_apply_piece (t := ⟨2, ![n, w]⟩) (1 : Fin 2) [⟨⟨2, ![n, a]⟩, x⟩, ⟨⟨2, ![n, b]⟩, y⟩] h (ix2 p q) 1 (by show (1 : ℕ) < 2; omega) ⟨2, ![n, b]⟩ y rfl rfl a rfl (ix2 p q')
    (fun ax hax => match ax with
      | ⟨0, _⟩ => rfl
      | ⟨1, _⟩ => absurd rfl hax)
    hq

end Cert.Join

end
-- ==== Proof.LibJoinFlat.lean ====
/-
  Two vectors joined end to end, read at an entry.

  Two flat arrays `[a]` and `[b]` joined along their one axis give a `[w]` array whose entry `q` is the first
  piece's entry `q` for `q < a` and the second's entry `q - a` beyond.
-/
import Idealize.ShloMosaic.Lib.ValueIdx
import Idealize.ShloMosaic.Lib.Pipeline.Value

noncomputable section

namespace Cert.JoinFlat

open Idealize.ShloMosaic Idealize.ShloMosaic.ValueIdx

/-- An entry in the first piece. -/
theorem join1_first {a b w : ℕ} {α : Type} (x : (⟨1, ![a]⟩ : Shape).Idx → α) (y : (⟨1, ![b]⟩ : Shape).Idx → α)
    (h : Shape.Concatenates [(⟨1, ![a]⟩ : Shape), ⟨1, ![b]⟩] ⟨1, ![w]⟩ 0) (q : Fin w) (q' : Fin a) (hq : q'.val = q.val) :
    concatenate ⟨1, ![w]⟩ 0 [⟨⟨1, ![a]⟩, x⟩, ⟨⟨1, ![b]⟩, y⟩] h (ix1 q) = x (ix1 q') :=
  concatenate_apply_piece (t := ⟨1, ![w]⟩) (0 : Fin 1) [⟨⟨1, ![a]⟩, x⟩, ⟨⟨1, ![b]⟩, y⟩] h (ix1 q) 0 (by show (0 : ℕ) < 2; omega) ⟨1, ![a]⟩ x rfl rfl 0 rfl (ix1 q')
    (fun ax hax => match ax with
      | ⟨0, _⟩ => absurd rfl hax)
    ((Nat.zero_add _).trans hq)

/-- An entry in the second piece. -/
theorem join1_second {a b w : ℕ} {α : Type} (x : (⟨1, ![a]⟩ : Shape).Idx → α) (y : (⟨1, ![b]⟩ : Shape).Idx → α)
    (h : Shape.Concatenates [(⟨1, ![a]⟩ : Shape), ⟨1, ![b]⟩] ⟨1, ![w]⟩ 0) (q : Fin w) (q' : Fin b) (hq : a + q'.val = q.val) :
    concatenate ⟨1, ![w]⟩ 0 [⟨⟨1, ![a]⟩, x⟩, ⟨⟨1, ![b]⟩, y⟩] h (ix1 q) = y (ix1 q') :=
  concatenate_apply_piece (t := ⟨1, ![w]⟩) (0 : Fin 1) [⟨⟨1, ![a]⟩, x⟩, ⟨⟨1, ![b]⟩, y⟩] h (ix1 q) 1 (by show (1 : ℕ) < 2; omega) ⟨1, ![b]⟩ y rfl rfl a rfl (ix1 q')
    (fun ax hax => match ax with
      | ⟨0, _⟩ => absurd rfl hax)
    hq

end Cert.JoinFlat

end
-- ==== Proof.Bridge.lean ====
/-
  The reference's result is the idealized kernel's function of the arguments.

  Both programs compute, from the same edge list, the same sources, targets and weights (the reference twice, once per
  branch: the second copies are the same terms).  The reference aggregates the 64-lane products x·W_mu and x·W_ls
  separately; the kernel aggregates the 128-lane product of x with the two matrices joined along their lanes.  Lane
  `q` of the joined product is lane `q` of x·W_mu, lane `64 + q` is lane `q` of x·W_ls, and aggregation works one lane
  at a time, so lane `q` of the kernel's table is the reference's mean branch and lane `64 + q` its log-deviation
  branch, before the bias.  The joined bias row's lanes `q` and `64 + q` are the two bias vectors' entries `q`.  The
  closing arithmetic — add the bias, clamp the log-deviation at ten, exponentiate, scale the noise, add — is the same
  on both sides, the host's exponential and the vector unit's being one function on the extended reals.  No law of
  arithmetic is used beyond reading both sides at an entry, so nothing here needs the inputs finite.
-/
import proofs.«143661_j36464272343629_1_alg».proof.Proof.RefRead
import proofs.«143661_j36464272343629_1_alg».proof.Proof.LibAggLane
import proofs.«143661_j36464272343629_1_alg».proof.Proof.LibJoinLanes
import proofs.«143661_j36464272343629_1_alg».proof.Proof.LibJoinFlat
import proofs.«143661_j36464272343629_1_alg».proof.Proof.LibRowBroadcast
import proofs.«143661_j36464272343629_1_alg».proof.Proof.KernelValue

set_option maxRecDepth 16384

open scoped BigOperators

noncomputable section

open Idealize.ShloMosaic Idealize.ShloMosaic.ValueIdx Idealize.ShloMosaic.RowTake

namespace Cert.Bridge

open Cert.ReferenceIdeal.ReadP
open Cert.JoinFlat (join1_first join1_second)
open Cert.KernelIdeal.Whole (wcat brow atab result)
open Cert.KernelIdeal.Combine (lo hi ten comb combAt)
open Cert.KernelIdeal.Dense (prod)

variable (x0 : (⟨Cert.ReferenceIdeal.S100000x128, .f32⟩ : BufTy).Contents (Elt Ideal))
  (x1 : (⟨Cert.ReferenceIdeal.S2x1600000, .i32⟩ : BufTy).Contents (Elt Ideal))
  (x2 x4 : (⟨Cert.ReferenceIdeal.S128x64, .f32⟩ : BufTy).Contents (Elt Ideal))
  (x3 x5 : (⟨Cert.ReferenceIdeal.S64, .f32⟩ : BufTy).Contents (Elt Ideal))
  (x6 : (⟨Cert.ReferenceIdeal.S100000x64, .f32⟩ : BufTy).Contents (Elt Ideal))

/-! ## The second branch recomputes the first branch's edge quantities -/

theorem v69_eq : val_main_v69 (F := Ideal) x1 = val_main_v29 (F := Ideal) x1 := rfl
theorem v76_eq : val_main_v76 (F := Ideal) x1 = val_main_v36 (F := Ideal) x1 := rfl
theorem v82_eq : val_main_v82 (F := Ideal) x1 = val_main_v42 (F := Ideal) x1 := rfl
theorem v81_eq : val_main_v81 (F := Ideal) = val_main_v41 (F := Ideal) := rfl
theorem v78_eq : val_main_v78 (F := Ideal) x1 = val_main_v38 (F := Ideal) x1 := by
  unfold val_main_v78 val_main_v38
  rw [v69_eq]

/-! ## The joined product's lanes -/

/-- Lane `q` of the joined product is lane `q` of the product with the first matrix. -/
theorem hcat_lo (r : Fin 100000) (q : Fin 64) :
    prod x0 (wcat x2 x4) (ix2 r (lo q)) = val_main_v30 (F := Ideal) x0 x2 (ix2 r q) := by
  rw [Cert.KernelIdeal.Dense.prod_apply, val_main_v30_apply]
  refine Finset.sum_congr rfl fun k _ => ?_
  congr 1
  · exact congrArg x0 (funext fun a => by
      match a with
      | ⟨0, _⟩ => rfl
      | ⟨1, _⟩ => rfl)
  · unfold wcat
    refine (Cert.Join.join2_first x2 x4 _ k (lo q) q.isLt).trans ?_
    exact congrArg x2 (funext fun a => by
      match a with
      | ⟨0, _⟩ => rfl
      | ⟨1, _⟩ => rfl)

/-- Lane `64 + q` of the joined product is lane `q` of the product with the second matrix. -/
theorem hcat_hi (r : Fin 100000) (q : Fin 64) :
    prod x0 (wcat x2 x4) (ix2 r (hi q)) = val_main_v70 (F := Ideal) x0 x4 (ix2 r q) := by
  rw [Cert.KernelIdeal.Dense.prod_apply, val_main_v70_apply]
  refine Finset.sum_congr rfl fun k _ => ?_
  congr 1
  · exact congrArg x0 (funext fun a => by
      match a with
      | ⟨0, _⟩ => rfl
      | ⟨1, _⟩ => rfl)
  · unfold wcat
    refine (Cert.Join.join2_second x2 x4 _ k (hi q) q rfl).trans ?_
    exact congrArg x4 (funext fun a => by
      match a with
      | ⟨0, _⟩ => rfl
      | ⟨1, _⟩ => rfl)

/-! ## The aggregated table's lanes -/

theorem atab_lo (n : Fin 100000) (q : Fin 64) :
    val_main_v43 (F := Ideal) x0 x1 x2 (ix2 n q) = atab (prod x0 (wcat x2 x4)) x1 (ix2 n (lo q)) := by
  unfold atab val_main_v43 val_main_v40 val_main_v37 val_main_v39
  exact Cert.AggLane.agg_lane (N := 100000) (C := 64) (C' := 128) (R := 1700000) (by omega)
    Cert.ReferenceIdeal.Facts₀.scatter_S100000x64_S1700000x1_S1700000x64_1_0_0_1_wf
    Cert.ReferenceIdeal.Facts₀.gather_S100000x64_S1700000x1_S1700000x64_1_0_n_n_0_1_164_wf
    Cert.ReferenceIdeal.Facts₀.bcast_S1700000x1_S1700000x64_0_1 _ _ _
    (val_main_v41 (F := Ideal)) (val_main_v30 (F := Ideal) x0 x2) _ _
    (val_main_v36 (F := Ideal) x1) (val_main_v42 (F := Ideal) x1) (val_main_v38 (F := Ideal) x1)
    n q (lo q) (by rw [val_main_v41_apply, HostKeepdims.bcast_scalar_apply]; rfl)
    (fun r => (hcat_lo x0 x2 x4 r q).symm)

theorem atab_hi (n : Fin 100000) (q : Fin 64) :
    val_main_v83 (F := Ideal) x0 x1 x4 (ix2 n q) = atab (prod x0 (wcat x2 x4)) x1 (ix2 n (hi q)) := by
  unfold atab val_main_v83 val_main_v80 val_main_v77 val_main_v79
  rw [v81_eq, v82_eq, v76_eq, v78_eq]
  exact Cert.AggLane.agg_lane (N := 100000) (C := 64) (C' := 128) (R := 1700000) (by omega)
    Cert.ReferenceIdeal.Facts₀.scatter_S100000x64_S1700000x1_S1700000x64_1_0_0_1_wf
    Cert.ReferenceIdeal.Facts₀.gather_S100000x64_S1700000x1_S1700000x64_1_0_n_n_0_1_164_wf
    Cert.ReferenceIdeal.Facts₀.bcast_S1700000x1_S1700000x64_0_1 _ _ _
    (val_main_v41 (F := Ideal)) (val_main_v70 (F := Ideal) x0 x4) _ _
    (val_main_v36 (F := Ideal) x1) (val_main_v42 (F := Ideal) x1) (val_main_v38 (F := Ideal) x1)
    n q (hi q) (by rw [val_main_v41_apply, HostKeepdims.bcast_scalar_apply]; rfl)
    (fun r => (hcat_hi x0 x2 x4 r q).symm)

/-! ## The bias row's lanes -/

theorem brow_lo (n : Fin 100000) (q : Fin 64) :
    val_main_v45 (F := Ideal) x3 (ix2 n q) = brow x3 x5 (ix2 (0 : Fin 1) (lo q)) := by
  rw [val_main_v45_apply, val_main_v44_apply]
  unfold brow
  rw [RowBroadcast.broadcastInDim_flat_apply (![1] : Fin 1 → Fin 2) rfl]
  refine Eq.trans ?_ (join1_first x3 x5 _ (lo q) q rfl).symm
  exact congrArg x3 (funext fun a => by
    match a with
    | ⟨0, _⟩ => rfl)

theorem brow_hi (n : Fin 100000) (q : Fin 64) :
    val_main_v85 (F := Ideal) x5 (ix2 n q) = brow x3 x5 (ix2 (0 : Fin 1) (hi q)) := by
  rw [val_main_v85_apply, val_main_v84_apply]
  unfold brow
  rw [RowBroadcast.broadcastInDim_flat_apply (![1] : Fin 1 → Fin 2) rfl]
  refine Eq.trans ?_ (join1_second x3 x5 _ (hi q) q rfl).symm
  exact congrArg x5 (funext fun a => by
    match a with
    | ⟨0, _⟩ => rfl)

/-- The clamp's bound: the host's broadcast constant ten is the vector unit's splat of the same word. -/
theorem ten_eq (n : Fin 100000) (q : Fin 64) : val_main_v87 (F := Ideal) (ix2 n q) = ten := by
  rw [val_main_v87_apply]
  rfl

/-! ## The two results -/

/-- The reference's result is the kernel's function of the seven arguments. -/
theorem ref_eq : val_main_v91 (F := Ideal) x0 x1 x2 x3 x4 x5 x6 = result x0 x1 x2 x3 x4 x5 x6 := by
  funext i
  obtain ⟨n, q, rfl⟩ : ∃ (n : Fin 100000) (q : Fin 64), i = ix2 n q := ⟨i 0, i 1, eq_ix2 i⟩
  rw [val_main_v91_apply, val_main_v46_apply, val_main_v90_apply, val_main_v89_apply, val_main_v88_apply,
    val_main_v86_apply, atab_lo x0 x1 x2 x4, atab_hi x0 x1 x2 x4, brow_lo x3 x5, brow_hi x3 x5, ten_eq]
  unfold result
  rw [Cert.KernelIdeal.Combine.comb_apply]
  unfold Cert.KernelIdeal.Combine.combAt
  simp only [Ideal.addf_def, Ideal.mulf_def, Ideal.minimumf_def, Ideal.hostUnary_exp_def]

end Cert.Bridge

end
-- ==== Proof.lean ====
/-
  A variational graph auto-encoder's encoder, kernel against reference, on the extended reals.

  Both programs take node features `x : [100000, 128]`, an edge list `[2, 1600000]`, two weight matrices `[128, 64]`
  with their bias vectors `[64]` and noise `eps : [100000, 64]`.  With self-loops appended, the per-edge weight is
  `d(src)·d(dst)`, `d` the inverse square root of the in-degree (zero where the degree is zero).  A graph convolution
  with weight matrix `W` and bias `b` gathers the rows of `x·W` at the edge sources, scales each by its edge's weight,
  accumulates them at the edge targets and adds `b`.  The result is  mu + eps · exp (min logstd 10)  with `mu` and
  `logstd` the convolutions by the two weight matrices.

  The reference computes the two convolutions one after the other.  The kernel joins the two weight matrices along
  their lanes and the two biases end to end, computes the one 128-lane product in a first launch (twenty blocks of
  5000 rows on the matrix unit), aggregates it once on the host, and in a second launch adds the joined bias, splits the
  lanes back into the two halves and does the closing arithmetic.  Aggregation acts on each lane by itself, so the two
  arrangements agree entry by entry with no law of arithmetic involved; the inputs' finiteness is not used.

  Modules: Region0 (the first launch as one function), Region1 (the second launch as one function), HostReads and
  KernelValue (the buffers between and after the launches; the kernel's run), RunNamed (the run with the result
  buffer kept), LibAggLane (aggregation lane by lane), Bridge (the reference's result is the kernel's function),
  RefRun / RefRead (the reference's run and its stages read at an index); the other Lib modules read single
  operations (row gathers and scatters, joins, broadcasts, the matrix product) at an entry.
-/
import proofs.«143661_j36464272343629_1_alg».proof.Defs
import proofs.«143661_j36464272343629_1_alg».proof.Proof.Gen.Kernel
import proofs.«143661_j36464272343629_1_alg».proof.Proof.Gen.Kernel.Skeleton
import proofs.«143661_j36464272343629_1_alg».proof.Proof.Gen.Kernel.Launch
import proofs.«143661_j36464272343629_1_alg».proof.Proof.Gen.Kernel.Points
import proofs.«143661_j36464272343629_1_alg».proof.Proof.Gen.Kernel.Frame
import proofs.«143661_j36464272343629_1_alg».proof.Proof.Gen.KernelIdeal
import proofs.«143661_j36464272343629_1_alg».proof.Proof.Gen.KernelIdeal.Skeleton
import proofs.«143661_j36464272343629_1_alg».proof.Proof.Gen.KernelIdeal.Launch
import proofs.«143661_j36464272343629_1_alg».proof.Proof.Gen.KernelIdeal.Points
import proofs.«143661_j36464272343629_1_alg».proof.Proof.Gen.KernelIdeal.Frame
import proofs.«143661_j36464272343629_1_alg».proof.Proof.Gen.ReferenceIdeal
import proofs.«143661_j36464272343629_1_alg».proof.Proof.Gen.Pre_finite_inputs
import proofs.«143661_j36464272343629_1_alg».proof.Proof.RefRun
import proofs.«143661_j36464272343629_1_alg».proof.Proof.RefRead
import proofs.«143661_j36464272343629_1_alg».proof.Proof.KernelValue
import proofs.«143661_j36464272343629_1_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both programs end with the same result array: the kernel's at its
    function of the arguments (KernelValue), the reference's at its last stage (RefRead), which is that function
    (Bridge). -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v91_eq, Cert.Bridge.ref_eq]
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
